-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The product of a real matrix by a matrix of 32-bit integers, entry by entry.

  `x` is an [8192, 4096] array of extended reals and `w` a [4096, 4096] array of 32-bit words, each read as a signed
  integer. Entry `(p, c)` of the product is the sum over `k` of `x (p, k)` times the integer `w (k, c)`. Both
  programs compute this array, and each entry by the same 4096 terms: the only law that joins them is that a finite
  sum over an index type does not depend on how the index type is presented, which holds in any commutative monoid,
  so no entry of `x` has to be finite.
-/
import Idealize.ShloMosaic.PureOps.Ideal
import Idealize.ShloMosaic.Lib.ValueIdx

noncomputable section

namespace Cert.TernaryDense

open Idealize.ShloMosaic Idealize.ShloMosaic.ValueIdx

/-- The product `x · w`: entry `i = (p, c)` is `∑ k, x (p, k) * w (k, c)`, each `w (k, c)` the signed integer its
    word spells, as a real number. -/
def prod (x : FVec Ideal ⟨2, ![8192, 4096]⟩ .f32) (w : IVec ⟨2, ![4096, 4096]⟩ 32) :
    FVec Ideal ⟨2, ![8192, 4096]⟩ .f32 :=
  fun i => ∑ k : Fin 4096, x (ix2 (i 0) k) * (((w (ix2 k (i 1))).toInt : ℝ) : EReal)

end Cert.TernaryDense

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.BlockProduct.lean ====
/-
  One grid point's arithmetic. The body multiplies the [1024, 4096] block of the left operand by the [4096, 512]
  block of the right operand into a zero accumulator: entry `(p, q)` of what it stores is the sum over `k` of the left
  block at `(p, k)` times the right block at `(k, q)`. The two shape casts in front of the product are casts to the
  operands' own shapes, so they change nothing.
-/
import proofs.«128531_j20306605376070_2_alg».proof.Proof.Gen.KernelIdeal.Skeleton
import proofs.«128531_j20306605376070_2_alg».proof.Proof.LibRowOps

noncomputable section

namespace Cert.TernaryDense

open Idealize.ShloMosaic Idealize.ShloMosaic.ValueIdx Cert.KernelIdeal Cert.KernelIdeal.Gen

/-- The left operand is read at the output's row … -/
theorem lhs_row (j : S1024x512.Idx) (q : dot_S1024x4096_S4096x512_S1024x512_1_0_0_1_n_n.contr.Idx) :
    (dot_S1024x4096_S4096x512_S1024x512_1_0_0_1_n_n.lhsIdx j q 0).val = (j 0).val := by
  unfold DotDims.lhsIdx
  rw [dif_neg (show ¬(0 : Fin S1024x4096.rank) ∈ dot_S1024x4096_S4096x512_S1024x512_1_0_0_1_n_n.lhsBatch by decide),
    dif_pos (show (0 : Fin S1024x4096.rank) ∈ dot_S1024x4096_S4096x512_S1024x512_1_0_0_1_n_n.lhsNonContracting by decide)]
  rfl

/-- … and at the contracted coordinate; -/
theorem lhs_contr (j : S1024x512.Idx) (q : dot_S1024x4096_S4096x512_S1024x512_1_0_0_1_n_n.contr.Idx) :
    (dot_S1024x4096_S4096x512_S1024x512_1_0_0_1_n_n.lhsIdx j q 1).val = (q ⟨0, by decide⟩).val :=
  dot_S1024x4096_S4096x512_S1024x512_1_0_0_1_n_n.lhsIdx_val_of_single rfl j q

/-- the right operand at the contracted coordinate … -/
theorem rhs_contr (j : S1024x512.Idx) (q : dot_S1024x4096_S4096x512_S1024x512_1_0_0_1_n_n.contr.Idx) :
    (dot_S1024x4096_S4096x512_S1024x512_1_0_0_1_n_n.rhsIdx j q 0).val = (q ⟨0, by decide⟩).val :=
  dot_S1024x4096_S4096x512_S1024x512_1_0_0_1_n_n.rhsIdx_val_of_single rfl j q

/-- … and at the output's column. -/
theorem rhs_col (j : S1024x512.Idx) (q : dot_S1024x4096_S4096x512_S1024x512_1_0_0_1_n_n.contr.Idx) :
    (dot_S1024x4096_S4096x512_S1024x512_1_0_0_1_n_n.rhsIdx j q 1).val = (j 1).val := by
  unfold DotDims.rhsIdx
  rw [dif_neg (show ¬(1 : Fin S4096x512.rank) ∈ dot_S1024x4096_S4096x512_S1024x512_1_0_0_1_n_n.rhsBatch by decide),
    dif_pos (show (1 : Fin S4096x512.rank) ∈ dot_S1024x4096_S4096x512_S1024x512_1_0_0_1_n_n.rhsNonContracting by decide)]
  rfl

/-- What the body stores, at entry `(p, q)` of the block: the row `p` of the left block against the column `q` of the
    right block. -/
theorem block_product (x0 : FVec Ideal S1024x4096 .bf16) (x1 : FVec Ideal S4096x512 .bf16) (p : Fin 1024) (q : Fin 512) :
    k0_pay1 (F := Ideal) x0 x1 (ix2 p q) = ∑ k : Fin 4096, x0 (ix2 p k) * x1 (ix2 k q) := by
  unfold k0_pay1
  simp only [shapeCast_self]
  exact Cert.LibRowOps.matmul_zero_apply dot_S1024x4096_S4096x512_S1024x512_1_0_0_1_n_n none x0 x1 rfl rfl
    lhs_row lhs_contr rhs_contr rhs_col p q

end Cert.TernaryDense

end
-- ==== Proof.KernelArray.lean ====
/-
  From the blocks to the array. The grid has 8 × 8 points; point `(a, b)` reads rows `1024·a … 1024·a + 1023` of the
  left operand (all 4096 columns) and columns `512·b … 512·b + 511` of the right operand (all 4096 rows), and writes the
  [1024, 512] block `(a, b)` of the result. Entering the region the left operand's array is `x` itself (the narrowing
  format change is the identity on extended reals) and the right operand's array holds, at each entry, the signed
  integer of `w`'s word as a real. So entry `(p, q)` of the block written at `(a, b)` is entry
  `(1024·a + p, 512·b + q)` of the product `x · w`, every entry of the result lies in exactly the block of the point
  `(row / 1024, column / 512)`, and the result array ends holding the product.
-/
import proofs.«128531_j20306605376070_2_alg».proof.Proof.Gen.KernelIdeal.Value
import proofs.«128531_j20306605376070_2_alg».proof.Proof.Spec
import proofs.«128531_j20306605376070_2_alg».proof.Proof.BlockProduct
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.TernaryDense

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-! ## The two staged arrays when the region is entered -/

/-- The left operand's array is `x`: on extended reals the narrowing format change is the identity. -/
theorem entry_left (c : Dev nD) :
    (V m c main_v0 : S8192x4096.Idx → EReal) = ((m ((c : Thread nD τ).loc main_arg0)) : S8192x4096.Idx → EReal) := by
  dsimp only [Gen.V, Gen.hostOps0]
  after_results
  rfl

/-- The right operand's array holds each word of `w` as the real number its signed reading spells. -/
theorem entry_right (c : Dev nD) :
    (V m c main_v1 : S4096x4096.Idx → EReal)
      = fun i => (((((m ((c : Thread nD τ).loc main_arg1)) : S4096x4096.Idx → BitVec 32) i).toInt : ℝ) : EReal) := by
  dsimp only [Gen.V, Gen.hostOps0]
  after_results
  rfl

/-! ## The index maps, decided over the 64 points -/

/-- The left window moves with the output's block row and stays at block column 0; the right window stays at block
    row 0 and moves with the output's block column; the output's block indices are below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every block `(a, b)` of the 8 × 8 tiling is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-! ## The input blocks as entries of the arguments -/

/-- Entry `(p, k)` of the left block at point `t` is `x` at row `1024 · (block row of t) + p`, column `k`. -/
theorem left_block (c : Dev nD) (t : Fin cfg0.N) (p : Fin 1024) (k : Fin 4096) (i : S8192x4096.Idx)
    (h0 : (i 0).val = win0_2.index t (0 : Fin 2) * 1024 + p.val) (h1 : (i 1).val = k.val) :
    (iblk m c 0 t : FVec Ideal S1024x4096 .bf16) (ix2 p k) = ((m ((c : Thread nD τ).loc main_arg0)) : S8192x4096.Idx → EReal) i := by
  obtain ⟨e0, e1, -⟩ := idx_facts t
  unfold iblk
  rw [View.read_apply]
  show (V m c main_v0 : S8192x4096.Idx → EReal) _ = _
  rw [entry_left]
  refine congrArg ((m ((c : Thread nD τ).loc main_arg0)) : S8192x4096.Idx → EReal) (funext fun a => Fin.ext ?_)
  match a with
  | ⟨0, _⟩ => show win0_0.index t (0 : Fin 2) * 1024 + 1 * p.val = (i 0).val; omega
  | ⟨1, _⟩ => show win0_0.index t (1 : Fin 2) * 4096 + 1 * k.val = (i 1).val; omega

/-- Entry `(k, q)` of the right block at point `t` is the integer of `w` at row `k`, column
    `512 · (block column of t) + q`. -/
theorem right_block (c : Dev nD) (t : Fin cfg0.N) (k : Fin 4096) (q : Fin 512) (i : S4096x4096.Idx)
    (h0 : (i 0).val = k.val) (h1 : (i 1).val = win0_2.index t (1 : Fin 2) * 512 + q.val) :
    (iblk m c 1 t : FVec Ideal S4096x512 .bf16) (ix2 k q)
      = (((((m ((c : Thread nD τ).loc main_arg1)) : S4096x4096.Idx → BitVec 32) i).toInt : ℝ) : EReal) := by
  obtain ⟨-, -, e2, e3, -⟩ := idx_facts t
  unfold iblk
  rw [View.read_apply]
  show (V m c main_v1 : S4096x4096.Idx → EReal) _ = _
  rw [entry_right]
  refine congrArg (fun j => (((((m ((c : Thread nD τ).loc main_arg1)) : S4096x4096.Idx → BitVec 32) j).toInt : ℝ) : EReal)) (funext fun a => Fin.ext ?_)
  match a with
  | ⟨0, _⟩ => show win0_1.index t (0 : Fin 2) * 4096 + 1 * k.val = (i 0).val; omega
  | ⟨1, _⟩ => show win0_1.index t (1 : Fin 2) * 512 + 1 * q.val = (i 1).val; omega

/-! ## One point's block is a block of the product -/

/-- If a [1024, 4096] array is rows `1024·r …` of `X` and a [4096, 512] array is columns `512·s …` of the integers of
    `W`, then their product at `y` is the product `X · W` at the entry `1024·r` rows and `512·s` columns further. -/
theorem point_product (X : FVec Ideal S8192x4096 .f32) (W : IVec S4096x4096 32)
    (x0 : FVec Ideal S1024x4096 .bf16) (x1 : FVec Ideal S4096x512 .bf16) (r s : ℕ) (y : S1024x512.Idx) (i : S8192x4096.Idx)
    (hx0 : ∀ (p : Fin 1024) (k : Fin 4096) (i' : S8192x4096.Idx),
      (i' 0).val = r * 1024 + p.val → (i' 1).val = k.val → x0 (ix2 p k) = X i')
    (hx1 : ∀ (k : Fin 4096) (q : Fin 512) (i' : S4096x4096.Idx),
      (i' 0).val = k.val → (i' 1).val = s * 512 + q.val → x1 (ix2 k q) = (((W i').toInt : ℝ) : EReal))
    (hi0 : (i 0).val = r * 1024 + (y 0).val) (hi1 : (i 1).val = s * 512 + (y 1).val) :
    k0_pay1 (F := Ideal) x0 x1 y = prod X W i := by
  obtain ⟨p, q, rfl⟩ : ∃ (p : Fin 1024) (q : Fin 512), y = ix2 p q := ⟨y 0, y 1, eq_ix2 y⟩
  refine (block_product x0 x1 p q).trans ?_
  unfold prod
  refine Finset.sum_congr rfl fun k _ => ?_
  rw [hx0 p k (ix2 (i 0) k) hi0 rfl, hx1 k q (ix2 k (i 1)) rfl hi1]

/-- What point `t` writes back is block `t` of the product of the arguments. -/
theorem flushed_eq (c : Dev nD) (t : Fin cfg0.N) :
    (dats m 0 c).flushed 2 t = ((cfg0.win 2).blk t).view.read (Elt Ideal) (prod (m ((c : Thread nD τ).loc main_arg0)) (m ((c : Thread nD τ).loc main_arg1))) := by
  rw [Value.flushed2]
  unfold out0_2
  rw [View.canon_unit_zero zero_offsets]
  simp only [View.ld_unit_zero (S := S1024x4096) zero_offsets, View.ld_unit_zero (S := S4096x512) zero_offsets]
  funext j
  show k0_pay1 (F := Ideal) (iblk m c 0 t) (iblk m c 1 t) j = prod (m ((c : Thread nD τ).loc main_arg0)) (m ((c : Thread nD τ).loc main_arg1)) (((cfg0.win 2).blk t).view.emb j)
  refine point_product (m ((c : Thread nD τ).loc main_arg0)) (m ((c : Thread nD τ).loc main_arg1)) (iblk m c 0 t) (iblk m c 1 t)
    (win0_2.index t (0 : Fin 2)) (win0_2.index t (1 : Fin 2)) j (((cfg0.win 2).blk t).view.emb j)
    (fun p k i' h0 h1 => left_block m c t p k i' h0 h1) (fun k q i' h0 h1 => right_block m c t k q i' h0 h1) ?_ ?_
  · show win0_2.index t (0 : Fin 2) * 1024 + 1 * (j 0).val = _; omega
  · show win0_2.index t (1 : Fin 2) * 512 + 1 * (j 1).val = _; omega

/-! ## The blocks tile the array -/

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v2).slice (win0_2.rect t)).set ↔ _
  rw [View.set_slice_whole, Rect.mem_set_unit]
  exact Iff.rfl

/-- Entry `(r, s)` of the array is in the block of the point whose block index is `(r / 1024, s / 512)`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the product of the arguments. -/
theorem final_array (c : Dev nD) : (dats m 0 c).arrAt 2 cfg0.N = prod (m ((c : Thread nD τ).loc main_arg0)) (m ((c : Thread nD τ).loc main_arg1)) :=
  (dats m 0 c).arrAt_eq_of_cover 2 (prod (m ((c : Thread nD τ).loc main_arg0)) (m ((c : Thread nD τ).loc main_arg1))) (fun t _ => flushed_eq m c t) covered

/-- Every weakly fair execution of the kernel's program terminates with the result array at the product of the
    arguments and the arguments unchanged. -/
theorem run : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.TernaryDense

end
-- ==== Proof.RefProduct.lean ====
/-
  The reference's result is the product. Its two operations convert the integer matrix to reals entry by entry and
  take the matrix product on the host; read at entry `(p, c)` that is the sum over `k` of `x (p, k)` times the integer
  `w (k, c)`.
-/
import proofs.«128531_j20306605376070_2_alg».proof.Proof.Gen.ReferenceIdeal.Read
import proofs.«128531_j20306605376070_2_alg».proof.Proof.Spec

noncomputable section

namespace Cert.TernaryDense

open Idealize.ShloMosaic Idealize.ShloMosaic.ValueIdx Cert.ReferenceIdeal Cert.ReferenceIdeal.Gen

/-- The host product of `x` with the converted `w` is `prod x w`. -/
theorem reference_eq (x : FVec Ideal S8192x4096 .f32) (w : IVec S4096x4096 32) :
    Cert.ReferenceIdeal.Read.val_main_v1 (F := Ideal) x w = prod x w := by
  funext i
  rw [Cert.ReferenceIdeal.Read.val_main_v1_apply]
  refine Finset.sum_congr rfl fun k _ => ?_
  have el : Cert.ReferenceIdeal.Read.lidx_main_v1 i k = ix2 (i 0) k := funext fun a => Fin.ext (by
    match a with
    | ⟨0, _⟩ => rfl
    | ⟨1, _⟩ => rfl)
  have er : Cert.ReferenceIdeal.Read.ridx_main_v1 i k = ix2 k (i 1) := funext fun a => Fin.ext (by
    match a with
    | ⟨0, _⟩ => rfl
    | ⟨1, _⟩ => rfl)
  rw [el, er]
  rfl

end Cert.TernaryDense

end
-- ==== Proof.lean ====
/-
  The kernel computes `x · w` for a real [8192, 4096] matrix `x` and a [4096, 4096] matrix `w` of 32-bit integers, one
  [1024, 512] block of the result per point of an 8 × 8 grid, each block the product of 1024 whole rows of `x` with 512
  whole columns of `w`; the reference takes the whole product at once. Before the product the kernel's program narrows
  `x` to a shorter float format and converts `w` to that format, the reference converts `w` to the format of `x`: on
  extended reals a change of float format is the identity and an integer converts to the real number it is, whatever
  the format, so both programs multiply the same two matrices. Entry `(p, c)` of either result is the sum over the
  4096 values of `k` of `x (p, k)` times the integer `w (k, c)` (Proof/Spec.lean); the kernel's side is
  Proof/KernelArray.lean over Proof/BlockProduct.lean, the reference's Proof/RefProduct.lean. No entry has to be finite:
  the two sides differ only in how the 4096 terms of one sum are indexed.
-/
import proofs.«128531_j20306605376070_2_alg».proof.Defs
import proofs.«128531_j20306605376070_2_alg».proof.Proof.Gen.Kernel
import proofs.«128531_j20306605376070_2_alg».proof.Proof.Gen.Kernel.Skeleton
import proofs.«128531_j20306605376070_2_alg».proof.Proof.Gen.Kernel.Launch
import proofs.«128531_j20306605376070_2_alg».proof.Proof.Gen.Kernel.Points
import proofs.«128531_j20306605376070_2_alg».proof.Proof.Gen.Kernel.Frame
import proofs.«128531_j20306605376070_2_alg».proof.Proof.Gen.KernelIdeal
import proofs.«128531_j20306605376070_2_alg».proof.Proof.Gen.KernelIdeal.Skeleton
import proofs.«128531_j20306605376070_2_alg».proof.Proof.Gen.KernelIdeal.Launch
import proofs.«128531_j20306605376070_2_alg».proof.Proof.Gen.KernelIdeal.Points
import proofs.«128531_j20306605376070_2_alg».proof.Proof.Gen.KernelIdeal.Frame
import proofs.«128531_j20306605376070_2_alg».proof.Proof.Gen.ReferenceIdeal
import proofs.«128531_j20306605376070_2_alg».proof.Proof.Gen.Pre_finite_inputs
import proofs.«128531_j20306605376070_2_alg».proof.Proof.Gen.KernelIdeal.Value
import proofs.«128531_j20306605376070_2_alg».proof.Proof.Gen.ReferenceIdeal.Run
import proofs.«128531_j20306605376070_2_alg».proof.Proof.Gen.ReferenceIdeal.Read
import proofs.«128531_j20306605376070_2_alg».proof.Proof.KernelArray
import proofs.«128531_j20306605376070_2_alg».proof.Proof.RefProduct
import Idealize.ShloMosaic.Adequacy
import Idealize.ShloMosaic.Init

noncomputable section

namespace Cert.Proof

open Idealize.ShloMosaic Idealize.ShloMosaic.TcCoe Idealize.SL.Sem

/-- The kernel's program as printed runs, and leaves its arguments as they were. -/
theorem frame_kernel : Cert.frame_Kernel := fun m ρ _ => Cert.Kernel.Gen.frame m ρ

/-- So does its reading on extended reals. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on extended reals rewrote no operation. -/
theorem preserves : Cert.preserves_Kernel_KernelIdeal := trivial

/-- From memories that agree on `x` and `w`, both programs end with the product `x · w` in their result. -/
theorem algebraic : Cert.algebraic_KernelIdeal_ReferenceIdeal := by
  intro m ρ m' ρ' _ hagree
  refine ⟨fun c => Cert.TernaryDense.prod (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.TernaryDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.TernaryDense.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
